-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x256 : Shape := ⟨2, ![512, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x512 .f32) (main_arg3 : FVec F S512 .f32) (main_arg4 : FVec F S512x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x256 : Shape := ⟨2, ![512, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x512 : Shape := ⟨2, ![1, 512]⟩
abbrev S50000x256 : Shape := ⟨2, ![50000, 256]⟩
abbrev S2000x128 : Shape := ⟨2, ![2000, 128]⟩
abbrev S2000x256 : Shape := ⟨2, ![2000, 256]⟩
abbrev S2000x512 : Shape := ⟨2, ![2000, 512]⟩

abbrev nBuf : Space → Nat
  | .hbm => 24
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S1x512, .f32⟩
  | .hbm, ⟨23, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .f32⟩
  | .local _ .vmem, ⟨5, _⟩ => ⟨S1x512, .f32⟩
  | .local _ .vmem, ⟨6, _⟩ => ⟨S512x256, .f32⟩
  | .local _ .vmem, ⟨7, _⟩ => ⟨S2000x256, .f32⟩
  | .local _ .vmem, ⟨8, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x256 : Shape := ⟨2, ![512, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x512 : Shape := ⟨2, ![50000, 512]⟩
abbrev S1x512 : Shape := ⟨2, ![1, 512]⟩
abbrev S50000x256 : Shape := ⟨2, ![50000, 256]⟩

abbrev nBuf : Space → Nat
  | .hbm => 28
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S50000x512, .f32⟩
  | .hbm, ⟨24, _⟩ => ⟨S1x512, .f32⟩
  | .hbm, ⟨25, _⟩ => ⟨S50000x512, .f32⟩
  | .hbm, ⟨26, _⟩ => ⟨S50000x512, .f32⟩
  | .hbm, ⟨27, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x512_S50000x512_1_0_0_1_n_n_wf : DotDims.WF S50000x128 S128x512 S50000x512 [1] [0] [0] [1] [] []
  dot_S50000x512_S512x256_S50000x256_1_0_0_1_n_n_wf : DotDims.WF S50000x512 S512x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.Spec.lean ====
/-
  The function both programs compute, entry by entry, over the extended reals.

  A node `r` carries the feature row `x[r, ·]` and the sum `a[r, ·]` of its in-neighbours' rows. With
  `h = a + x` the hidden layer is `hidden r k = Σ_l h[r, l] · W1[l, k] + b[k]` (128 terms) and the result is
  `outAt r q = Σ_k hidden r k · W2[k, q]` (512 terms). The neighbour sum `a` is a parameter here: both programs
  obtain it from the same gather and scatter-add of the edge list, and nothing below looks inside it.
  No law of the extended reals is used anywhere: the two programs form these sums in the same grouping, the
  kernel for 2000 rows at a time and the reference for all 50000 rows at once.
-/
import Idealize.ShloMosaic.PureOps.Ideal
import Idealize.ShloMosaic.Lib.ValueIdx

noncomputable section

open scoped BigOperators

namespace Cert.Mlp

open Idealize.ShloMosaic Idealize.ShloMosaic.ValueIdx

/-- Entry `(r, k)` of the hidden layer: row `r` of `a + x` against column `k` of `W1`, plus the bias `b[k]`. -/
def hidden (a x : (⟨2, ![50000, 128]⟩ : Shape).Idx → EReal) (W1 : (⟨2, ![128, 512]⟩ : Shape).Idx → EReal)
    (b : Fin 512 → EReal) (r : Fin 50000) (k : Fin 512) : EReal :=
  (∑ l : Fin 128, (a (ix2 r l) + x (ix2 r l)) * W1 (ix2 l k)) + b k

/-- Entry `(r, q)` of the result: row `r` of the hidden layer against column `q` of `W2`. -/
def outAt (a x : (⟨2, ![50000, 128]⟩ : Shape).Idx → EReal) (W1 : (⟨2, ![128, 512]⟩ : Shape).Idx → EReal)
    (b : Fin 512 → EReal) (W2 : (⟨2, ![512, 256]⟩ : Shape).Idx → EReal) (r : Fin 50000) (q : Fin 256) : EReal :=
  ∑ k : Fin 512, hidden a x W1 b r k * W2 (ix2 k q)

/-- The whole result array. -/
def out (a x : (⟨2, ![50000, 128]⟩ : Shape).Idx → EReal) (W1 : (⟨2, ![128, 512]⟩ : Shape).Idx → EReal)
    (b : Fin 512 → EReal) (W2 : (⟨2, ![512, 256]⟩ : Shape).Idx → EReal) :
    (⟨2, ![50000, 256]⟩ : Shape).Idx → EReal :=
  fun i => outAt a x W1 b W2 (i 0) (i 1)

/-- The result array at an index given by its coordinates. -/
theorem out_ix2 (a x : (⟨2, ![50000, 128]⟩ : Shape).Idx → EReal) (W1 : (⟨2, ![128, 512]⟩ : Shape).Idx → EReal)
    (b : Fin 512 → EReal) (W2 : (⟨2, ![512, 256]⟩ : Shape).Idx → EReal) (r : Fin 50000) (q : Fin 256) :
    out a x W1 b W2 (ix2 r q) = outAt a x W1 b W2 r q := rfl

end Cert.Mlp

end
-- ==== Proof.RefIsSpec.lean ====
/-
  The reference computes `Mlp.out` of the neighbour sum and its arguments.

  Its last operation is a `dot_general` contracting the 512 hidden columns; the hidden layer under it is a
  `dot_general` contracting the 128 feature columns of `a + x` plus the bias broadcast along the rows. Read at an
  index `(r, q)` these are the two nested sums of `Mlp.outAt`, term for term, once each operand index the read
  lemmas name is written by its coordinates. The neighbour sum `a` (the scatter-add of the gathered rows) stays
  as the stage that produces it.
-/
import proofs.«179304_j4698694222647_1_alg».proof.Proof.Spec
import proofs.«179304_j4698694222647_1_alg».proof.Proof.Gen.ReferenceIdeal.Read

noncomputable section

open scoped BigOperators

namespace Cert.Mlp.Ref

open Idealize.ShloMosaic Idealize.ShloMosaic.ValueIdx
open Cert.ReferenceIdeal Cert.ReferenceIdeal.Gen Cert.ReferenceIdeal.Read

/-- The left operand of the second product at `(r, q)`, term `k`, is the hidden layer at `(r, k)`. -/
theorem lidx19 (r : Fin 50000) (q : Fin 256) (k : Fin 512) : lidx_main_v19 (ix2 r q) k = ix2 r k :=
  funext fun a => Fin.ext (by match a with | ⟨0, _⟩ => rfl | ⟨1, _⟩ => rfl)

/-- The right operand there is `W2` at `(k, q)`. -/
theorem ridx19 (r : Fin 50000) (q : Fin 256) (k : Fin 512) : ridx_main_v19 (ix2 r q) k = ix2 k q :=
  funext fun a => Fin.ext (by match a with | ⟨0, _⟩ => rfl | ⟨1, _⟩ => rfl)

/-- The left operand of the first product at `(r, k)`, term `l`, is `a + x` at `(r, l)`. -/
theorem lidx15 (r : Fin 50000) (k : Fin 512) (l : Fin 128) : lidx_main_v15 (ix2 r k) l = ix2 r l :=
  funext fun a => Fin.ext (by match a with | ⟨0, _⟩ => rfl | ⟨1, _⟩ => rfl)

/-- The right operand there is `W1` at `(l, k)`. -/
theorem ridx15 (r : Fin 50000) (k : Fin 512) (l : Fin 128) : ridx_main_v15 (ix2 r k) l = ix2 l k :=
  funext fun a => Fin.ext (by match a with | ⟨0, _⟩ => rfl | ⟨1, _⟩ => rfl)

/-- The bias broadcast along the rows reads, at `(r, k)`, the bias at `k`. -/
theorem bidx (r : Fin 50000) (k : Fin 512) : idx_main_v16 (idx_main_v17 (ix2 r k)) = ix1 k :=
  funext fun a => Fin.ext (by match a with | ⟨0, _⟩ => rfl)

/-- The reference's result stage is `Mlp.out` of the neighbour-sum stage and the arguments. -/
theorem result_eq (x0 : (⟨S50000x128, .f32⟩ : BufTy).Contents (Elt Ideal)) (x1 : (⟨S2x800000, .i32⟩ : BufTy).Contents (Elt Ideal))
    (x2 : (⟨S128x512, .f32⟩ : BufTy).Contents (Elt Ideal)) (x3 : (⟨S512, .f32⟩ : BufTy).Contents (Elt Ideal))
    (x4 : (⟨S512x256, .f32⟩ : BufTy).Contents (Elt Ideal)) :
    val_main_v19 (F := Ideal) x0 x1 x2 x3 x4 = Cert.Mlp.out (val_main_v13 (F := Ideal) x0 x1) x0 x2 (fun k => x3 (ix1 k)) x4 := by
  funext i
  obtain ⟨r, q, rfl⟩ : ∃ (r : Fin 50000) (q : Fin 256), i = ix2 r q := ⟨i 0, i 1, eq_ix2 i⟩
  rw [val_main_v19_apply, Cert.Mlp.out_ix2]
  unfold Cert.Mlp.outAt
  refine Finset.sum_congr rfl fun k _ => ?_
  rw [lidx19, ridx19, val_main_v18_apply, val_main_v15_apply, val_main_v17_apply, val_main_v16_apply, bidx]
  unfold Cert.Mlp.hidden
  rw [Ideal.addf_def]
  refine congrArg (fun s => (s + x3 (ix1 k)) * x4 (ix2 k q)) (Finset.sum_congr rfl fun l _ => ?_)
  rw [lidx15, ridx15, val_main_v14_apply, Ideal.addf_def]

end Cert.Mlp.Ref

end
-- ==== Proof.Payload.lean ====
/-
  What one grid point computes, entry by entry, over the extended reals.

  The body adds its two 2000 × 128 blocks, multiplies by the 128 × 512 weight block into a zero accumulator, adds
  the 1 × 512 bias row broadcast over the 2000 rows, and multiplies by the 512 × 256 weight block into a zero
  accumulator. The roundings to bfloat16 on the way into each product are the identity on extended reals, a
  product into a zero accumulator is the plain sum over the contracted axis, and the broadcast row reads its
  one row. So entry `(p, q)` of the stored block is
  `Σ_k ((Σ_l (x0[p, l] + x1[p, l]) · x2[l, k]) + x3[0, k]) · x4[k, q]`.
  When the five blocks are row `r` of two arrays `A`, `X`, the whole of two weight matrices and a bias row, this
  is `Mlp.outAt` of those at `(r, q)`.
-/
import proofs.«179304_j4698694222647_1_alg».proof.Proof.Spec
import proofs.«179304_j4698694222647_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.Body

open Idealize.ShloMosaic Idealize.ShloMosaic.ValueIdx
open Cert.KernelIdeal Cert.KernelIdeal.Gen

/-! ## The first product: 2000 × 128 by 128 × 512 -/

/-- The row coordinate of the left operand's index is the output's row. -/
theorem lhs1_row (i : S2000x512.Idx) (s : dot_S2000x128_S128x512_S2000x512_1_0_0_1_n_n.contr.Idx) :
    (dot_S2000x128_S128x512_S2000x512_1_0_0_1_n_n.lhsIdx i s 0).val = (i 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl

/-- The column coordinate of the right operand's index is the output's column. -/
theorem rhs1_col (i : S2000x512.Idx) (s : dot_S2000x128_S128x512_S2000x512_1_0_0_1_n_n.contr.Idx) :
    (dot_S2000x128_S128x512_S2000x512_1_0_0_1_n_n.rhsIdx i s 1).val = (i 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- Into a zero accumulator the first product at `(p, k)` is the sum over the 128 contracted columns. -/
theorem matmul1_apply (lhs : FVec Ideal S2000x128 .bf16) (rhs : FVec Ideal S128x512 .bf16) (p : Fin 2000) (k : Fin 512) :
    matmul dot_S2000x128_S128x512_S2000x512_1_0_0_1_n_n none lhs rhs (constant (F := Ideal) S2000x512 .f32 0x00000000#32) (ix2 p k)
      = ∑ l : Fin 128, lhs (ix2 p l) * rhs (ix2 l k) := by
  refine (Ideal.matmul_constant_zero_apply dot_S2000x128_S128x512_S2000x512_1_0_0_1_n_n none lhs rhs (ix2 p k)).trans ?_
  rw [← Equiv.sum_comp (contrEquiv1 dot_S2000x128_S128x512_S2000x512_1_0_0_1_n_n 128 rfl rfl).symm]
  refine Finset.sum_congr rfl fun l _ => ?_
  have hl := contrEquiv1_symm_val dot_S2000x128_S128x512_S2000x512_1_0_0_1_n_n 128 rfl rfl l
  have el : dot_S2000x128_S128x512_S2000x512_1_0_0_1_n_n.lhsIdx (ix2 p k)
      ((contrEquiv1 dot_S2000x128_S128x512_S2000x512_1_0_0_1_n_n 128 rfl rfl).symm l) = ix2 p l :=
    funext fun a => Fin.ext (by
      match a with
      | ⟨0, _⟩ => exact lhs1_row _ _
      | ⟨1, _⟩ => exact (dot_S2000x128_S128x512_S2000x512_1_0_0_1_n_n.lhsIdx_val_of_single rfl _ _).trans hl)
  have er : dot_S2000x128_S128x512_S2000x512_1_0_0_1_n_n.rhsIdx (ix2 p k)
      ((contrEquiv1 dot_S2000x128_S128x512_S2000x512_1_0_0_1_n_n 128 rfl rfl).symm l) = ix2 l k :=
    funext fun a => Fin.ext (by
      match a with
      | ⟨0, _⟩ => exact (dot_S2000x128_S128x512_S2000x512_1_0_0_1_n_n.rhsIdx_val_of_single rfl _ _).trans hl
      | ⟨1, _⟩ => exact rhs1_col _ _)
  rw [el, er]

/-! ## The second product: 2000 × 512 by 512 × 256 -/

/-- The row coordinate of the left operand's index is the output's row. -/
theorem lhs2_row (i : S2000x256.Idx) (s : dot_S2000x512_S512x256_S2000x256_1_0_0_1_n_n.contr.Idx) :
    (dot_S2000x512_S512x256_S2000x256_1_0_0_1_n_n.lhsIdx i s 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl

/-- The column coordinate of the right operand's index is the output's column. -/
theorem rhs2_col (i : S2000x256.Idx) (s : dot_S2000x512_S512x256_S2000x256_1_0_0_1_n_n.contr.Idx) :
    (dot_S2000x512_S512x256_S2000x256_1_0_0_1_n_n.rhsIdx i s 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

/-- Into a zero accumulator the second product at `(p, q)` is the sum over the 512 contracted columns. -/
theorem matmul2_apply (lhs : FVec Ideal S2000x512 .bf16) (rhs : FVec Ideal S512x256 .bf16) (p : Fin 2000) (q : Fin 256) :
    matmul dot_S2000x512_S512x256_S2000x256_1_0_0_1_n_n none lhs rhs (constant (F := Ideal) S2000x256 .f32 0x00000000#32) (ix2 p q)
      = ∑ k : Fin 512, lhs (ix2 p k) * rhs (ix2 k q) := by
  refine (Ideal.matmul_constant_zero_apply dot_S2000x512_S512x256_S2000x256_1_0_0_1_n_n none lhs rhs (ix2 p q)).trans ?_
  rw [← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q)
      ((contrEquiv1 dot_S2000x512_S512x256_S2000x256_1_0_0_1_n_n 512 rfl rfl).symm k) = ix2 p k :=
    funext fun a => Fin.ext (by
      match a with
      | ⟨0, _⟩ => exact lhs2_row _ _
      | ⟨1, _⟩ => exact (dot_S2000x512_S512x256_S2000x256_1_0_0_1_n_n.lhsIdx_val_of_single rfl _ _).trans hk)
  have er : dot_S2000x512_S512x256_S2000x256_1_0_0_1_n_n.rhsIdx (ix2 p q)
      ((contrEquiv1 dot_S2000x512_S512x256_S2000x256_1_0_0_1_n_n 512 rfl rfl).symm k) = ix2 k q :=
    funext fun a => Fin.ext (by
      match a with
      | ⟨0, _⟩ => exact (dot_S2000x512_S512x256_S2000x256_1_0_0_1_n_n.rhsIdx_val_of_single rfl _ _).trans hk
      | ⟨1, _⟩ => exact rhs2_col _ _)
  rw [el, er]

/-! ## The stored block at an entry -/

/-- Entry `(p, q)` of the block the body stores, from the five blocks it loads. -/
theorem pay_apply (x0 x1 : Vec Ideal S2000x128 .f32) (x2 : Vec Ideal S128x512 .f32) (x3 : Vec Ideal S1x512 .f32)
    (x4 : Vec Ideal S512x256 .f32) (p : Fin 2000) (q : Fin 256) :
    k0_pay1 (F := Ideal) x0 x1 x2 x3 x4 (ix2 p q)
      = ∑ k : Fin 512, ((∑ l : Fin 128, (x0 (ix2 p l) + x1 (ix2 p l)) * x2 (ix2 l k)) + x3 (ix2 (0 : Fin 1) k)) * x4 (ix2 k q) := by
  show matmul dot_S2000x512_S512x256_S2000x256_1_0_0_1_n_n none
      (truncf .bf16 (addf
        (matmul dot_S2000x128_S128x512_S2000x512_1_0_0_1_n_n none
          (truncf .bf16 (addf (shapeCast S2000x128 x0 shapeCasts_S2000x128_S2000x128) x1) bitsLt_bf16_f32)
          (truncf .bf16 x2 bitsLt_bf16_f32) (constant (F := Ideal) S2000x512 .f32 0x00000000#32))
        (broadcastTo S2000x512 (shapeCast S1x512 x3 shapeCasts_S1x512_S1x512) broadcasts_S1x512_S2000x512)) bitsLt_bf16_f32)
      (truncf .bf16 x4 bitsLt_bf16_f32) (constant (F := Ideal) S2000x256 .f32 0x00000000#32) (ix2 p q) = _
  rw [matmul2_apply]
  refine Finset.sum_congr rfl fun k _ => ?_
  rw [truncf_apply, truncf_apply, addf_apply, matmul1_apply, broadcastTo_1b_ab_apply, shapeCast_self, shapeCast_self]
  refine congrArg (fun s => (s + x3 (ix2 (0 : Fin 1) k)) * x4 (ix2 k q)) (Finset.sum_congr rfl fun l _ => ?_)
  rw [truncf_apply, truncf_apply, addf_apply]

/-- If row `p` of the first two blocks is row `r` of arrays `A` and `X`, and the other three blocks are the weight
    matrices `W1`, `W2` and the bias `b` as one row, then entry `(p, q)` of the stored block is the two-layer
    formula of `A`, `X`, `W1`, `b`, `W2` at `(r, q)`. -/
theorem stored_entry_of_rows
    (A X : (⟨2, ![50000, 128]⟩ : Shape).Idx → EReal) (W1 : (⟨2, ![128, 512]⟩ : Shape).Idx → EReal) (b : Fin 512 → EReal)
    (W2 : (⟨2, ![512, 256]⟩ : Shape).Idx → EReal)
    (x0 x1 : Vec Ideal S2000x128 .f32) (x2 : Vec Ideal S128x512 .f32) (x3 : Vec Ideal S1x512 .f32)
    (x4 : Vec Ideal S512x256 .f32) (r : Fin 50000) (p : Fin 2000) (q : Fin 256)
    (h0 : ∀ l : Fin 128, x0 (ix2 p l) = A (ix2 r l)) (h1 : ∀ l : Fin 128, x1 (ix2 p l) = X (ix2 r l))
    (h2 : ∀ (l : Fin 128) (k : Fin 512), x2 (ix2 l k) = W1 (ix2 l k))
    (h3 : ∀ k : Fin 512, x3 (ix2 (0 : Fin 1) k) = b k)
    (h4 : ∀ k : Fin 512, x4 (ix2 k q) = W2 (ix2 k q)) :
    k0_pay1 (F := Ideal) x0 x1 x2 x3 x4 (ix2 p q) = Cert.Mlp.outAt A X W1 b W2 r q := by
  rw [pay_apply]
  unfold Cert.Mlp.outAt Cert.Mlp.hidden
  refine Finset.sum_congr rfl fun k _ => ?_
  rw [h3 k, h4 k]
  refine congrArg (fun s => (s + b k) * W2 (ix2 k q)) (Finset.sum_congr rfl fun l _ => ?_)
  rw [h0 l, h1 l, h2 l k]

end Cert.Mlp.Body

end
-- ==== Proof.Blocks.lean ====
/-
  The arrays the region reads, and each window's block at a grid point as rows of them.

  The grid has 25 points. At point `t` the two row-blocked inputs (the neighbour sums and the node features) and
  the output hold rows `2000·t … 2000·t + 1999` of their arrays; the two weight matrices and the bias row are
  the whole of theirs at every point. Two of the arrays are made by the host before the region: the neighbour
  sums (a scatter-add, along the edges' targets, of the feature rows gathered at the edges' sources) and the bias
  laid out as one row of 512.
-/
import proofs.«179304_j4698694222647_1_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run

noncomputable section

namespace Cert.Mlp.Kernel

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-! ## The two arrays the host makes before the region -/

/-- The neighbour sums as a function of the feature array and the edge list: row 0 of the edge list gives each
    edge's source (a negative entry counted from the end), row 1 its target; the feature rows gathered at the
    sources are added, from zero, into the rows named by the targets. -/
def aggregate (x0 : (⟨S50000x128, .f32⟩ : BufTy).Contents (Elt Ideal)) (x1 : (⟨S2x800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] x1 slices_S2x800000_S1x800000_1_0) shapeCasts_S1x800000_S800000))
    (Host.gather gather_S50000x128_S800000x1_S800000x128_1_0_n_n_0_1_1128 x0
      (broadcastInDim S800000x1 ![0] bcast_S800000_S800000x1_0
        (select
          (cmpi .slt (shapeCast _ (extractStridedSlice S1x800000 ![0, 0] x1 slices_S2x800000_S1x800000_0_0) shapeCasts_S1x800000_S800000)
            (broadcastInDim S800000 ![] bcast_S_S800000 (constantI S_ 32 0#32)))
          (addi (shapeCast _ (extractStridedSlice S1x800000 ![0, 0] x1 slices_S2x800000_S1x800000_0_0) shapeCasts_S1x800000_S800000)
            (broadcastInDim S800000 ![] bcast_S_S800000 (constantI S_ 32 50000#32)))
          (shapeCast _ (extractStridedSlice S1x800000 ![0, 0] x1 slices_S2x800000_S1x800000_0_0) shapeCasts_S1x800000_S800000))))

/-- The region finds the neighbour sums in the first window's array. -/
theorem entry_sums (c : Dev nD) :
    (V m c main_v13 : (⟨S50000x128, .f32⟩ : BufTy).Contents (Elt Ideal))
      = aggregate (m ((c : Thread nD τ).loc main_arg0)) (m ((c : Thread nD τ).loc main_arg1)) := by
  dsimp only [Gen.V, Gen.hostOps0]
  after_results
  rfl

/-- The region finds the bias, laid out as one row, in the fourth window's array. -/
theorem entry_bias (c : Dev nD) :
    (V m c main_v14 : (⟨S1x512, .f32⟩ : BufTy).Contents (Elt Ideal))
      = shapeCast S1x512 (m ((c : Thread nD τ).loc main_arg3)) shapeCasts_S512_S1x512 := by
  dsimp only [Gen.V, Gen.hostOps0]
  after_results
  rfl

/-- Entry `(0, k)` of that row is the bias at `k`. -/
theorem entry_bias_apply (c : Dev nD) (k : Fin 512) :
    (V m c main_v14 : S1x512.Idx → EReal) (ix2 (0 : Fin 1) k)
      = (m ((c : Thread nD τ).loc main_arg3) : S512.Idx → EReal) (ix1 k) := by
  rw [entry_bias]
  exact shapeCast_a_1a_apply _ shapeCasts_S512_S1x512 (0 : Fin 1) k

/-! ## The windows' block indices over the grid -/

/-- The printed index maps at every grid point: the row-blocked windows are at block row `t`, the others at
    block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A grid point is below 25. -/
theorem point_lt (t : Fin cfg0.N) : t.val < 25 :=
  lt_of_lt_of_eq t.isLt (N_0 : cfg0.N = 25)

/-- Row `p` of point `t`'s block is row `2000·t + p` of the array. -/
def row (t : Fin cfg0.N) (p : Fin 2000) : Fin 50000 :=
  ⟨t.val * 2000 + p.val, by have := point_lt t; have := p.isLt; omega⟩

theorem row_val (t : Fin cfg0.N) (p : Fin 2000) : (row t p).val = t.val * 2000 + p.val := rfl

/-! ## The blocks as rows of the arrays

Each statement is about an arbitrary array `A` of the window's shape: which entry of `A` an entry of the window's
block at point `t` is. -/

/-- The first window's block at point `t` holds rows `2000·t …` of its array. -/
theorem read_sums (A : S50000x128.Idx → EReal) (t : Fin cfg0.N) (p : Fin 2000) (l : Fin 128) :
    (((cfg0.win 0).blk t).view.read (Elt Ideal) A : S2000x128.Idx → EReal) (ix2 p l) = A (ix2 (row t p) l) := by
  obtain ⟨e0, e1, -⟩ := idx_facts t
  rw [View.read_apply]
  show A _ = A _
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * l.val = l.val; rw [e1]; omega

/-- The second window's block at point `t` holds rows `2000·t …` of its array. -/
theorem read_feat (A : S50000x128.Idx → EReal) (t : Fin cfg0.N) (p : Fin 2000) (l : Fin 128) :
    (((cfg0.win 1).blk t).view.read (Elt Ideal) A : S2000x128.Idx → EReal) (ix2 p l) = A (ix2 (row t p) l) := by
  obtain ⟨-, -, e0, e1, -⟩ := idx_facts t
  rw [View.read_apply]
  show A _ = A _
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * l.val = l.val; rw [e1]; omega

/-- The third window's block is the whole of its array at every point. -/
theorem read_w1 (A : S128x512.Idx → EReal) (t : Fin cfg0.N) (l : Fin 128) (k : Fin 512) :
    (((cfg0.win 2).blk t).view.read (Elt Ideal) A : S128x512.Idx → EReal) (ix2 l k) = A (ix2 l k) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 128 + 1 * l.val = l.val; rw [e0]; omega
  | ⟨1, _⟩ => show win0_2.index t (1 : Fin 2) * 512 + 1 * k.val = k.val; rw [e1]; omega

/-- The fourth window's block is the whole of its one-row array at every point. -/
theorem read_bias (A : S1x512.Idx → EReal) (t : Fin cfg0.N) (k : Fin 512) :
    (((cfg0.win 3).blk t).view.read (Elt Ideal) A : S1x512.Idx → EReal) (ix2 (0 : Fin 1) k) = A (ix2 (0 : Fin 1) k) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 1 + 1 * 0 = 0; rw [e0]
  | ⟨1, _⟩ => show win0_3.index t (1 : Fin 2) * 512 + 1 * k.val = k.val; rw [e1]; omega

/-- The fifth window's block is the whole of its array at every point. -/
theorem read_w2 (A : S512x256.Idx → EReal) (t : Fin cfg0.N) (k : Fin 512) (q : Fin 256) :
    (((cfg0.win 4).blk t).view.read (Elt Ideal) A : S512x256.Idx → EReal) (ix2 k q) = A (ix2 k q) := by
  obtain ⟨-, -, -, -, -, -, -, -, e0, e1, -⟩ := idx_facts t
  rw [View.read_apply]
  show A _ = A _
  refine congrArg A (funext fun a => Fin.ext ?_)
  match a with
  | ⟨0, _⟩ => show win0_4.index t (0 : Fin 2) * 512 + 1 * k.val = k.val; rw [e0]; omega
  | ⟨1, _⟩ => show win0_4.index t (1 : Fin 2) * 256 + 1 * q.val = q.val; rw [e1]; omega

/-- Entry `(p, q)` of the output's block at point `t` sits at `(2000·t + p, q)` of the result array. -/
theorem block_out_emb (t : Fin cfg0.N) (p : Fin 2000) (q : Fin 256) :
    (((cfg0.win 5).blk t).view.emb (ix2 p q) : S50000x256.Idx) = ix2 (row t p) q := by
  obtain ⟨-, -, -, -, -, -, -, -, -, -, e0, e1⟩ := idx_facts t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 256 + 1 * q.val = q.val; rw [e1]; omega

end Cert.Mlp.Kernel

end
-- ==== Proof.Result.lean ====
/-
  The kernel's result array is `Mlp.out` of the neighbour sums and the arguments.

  At a grid point `t` the body stores one 2000 × 256 block; its entry `(p, q)` is the two nested sums of the
  stored-block formula over the point's input blocks, and those blocks are rows `2000·t + p` of the neighbour sums
  and of the node features, the whole weight matrices and the bias row. That is `Mlp.outAt` at row `2000·t + p`,
  column `q`: the block written back at `t` is block `t` of ONE array-wide function. The 25 blocks tile the
  50000 rows (row `r` lies in block `r / 2000`), so after the run the result array is that function.
-/
import proofs.«179304_j4698694222647_1_alg».proof.Proof.Spec
import proofs.«179304_j4698694222647_1_alg».proof.Proof.Payload
import proofs.«179304_j4698694222647_1_alg».proof.Proof.Blocks

noncomputable section

open scoped BigOperators

namespace Cert.Mlp.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result as one function of the arrays the region finds. -/
def found (c : Dev nD) : S50000x256.Idx → EReal :=
  Cert.Mlp.out (V m c main_v13) (V m c main_arg0) (V m c main_arg2)
    (fun k => (V m c main_v14 : S1x512.Idx → EReal) (ix2 (0 : Fin 1) k)) (V m c main_arg4)

/-- The same function of the launch memory: the neighbour sums of the features along the edge list, the features,
    the two weight matrices and the bias. -/
def result (c : Dev nD) : S50000x256.Idx → EReal :=
  Cert.Mlp.out (aggregate (m ((c : Thread nD τ).loc main_arg0)) (m ((c : Thread nD τ).loc main_arg1)))
    (m ((c : Thread nD τ).loc main_arg0)) (m ((c : Thread nD τ).loc main_arg2))
    (fun k => (m ((c : Thread nD τ).loc main_arg3) : S512.Idx → EReal) (ix1 k)) (m ((c : Thread nD τ).loc main_arg4))

/-- The arrays the region finds are the host's two and the untouched arguments. -/
theorem found_eq (c : Dev nD) : found m c = result m c := by
  unfold found result
  rw [entry_sums m c, V_main_arg0 m c, V_main_arg2 m c, V_main_arg4 m c]
  refine congrArg (fun b => Cert.Mlp.out _ _ _ b _) (funext fun k => ?_)
  exact entry_bias_apply m c k

/-- Entry `(p, q)` of the block stored at point `t` is the array-wide function at `(2000·t + p, q)`: the point's
    five blocks are rows of the arrays the region finds. -/
theorem stored_entry (c : Dev nD) (t : Fin cfg0.N) (p : Fin 2000) (q : Fin 256) :
    k0_pay1 (F := Ideal) (iblk m c 0 t) (iblk m c 1 t) (iblk m c 2 t) (iblk m c 3 t) (iblk m c 4 t) (ix2 p q)
      = found m c (ix2 (row t p) q) :=
  Cert.Mlp.Body.stored_entry_of_rows (V m c main_v13) (V m c main_arg0) (V m c main_arg2)
    (fun k => (V m c main_v14 : S1x512.Idx → EReal) (ix2 (0 : Fin 1) k)) (V m c main_arg4)
    (iblk m c 0 t) (iblk m c 1 t) (iblk m c 2 t) (iblk m c 3 t) (iblk m c 4 t) (row t p) p q
    (fun l => read_sums (V m c main_v13) t p l) (fun l => read_feat (V m c main_arg0) t p l)
    (fun l k => read_w1 (V m c main_arg2) t l k) (fun k => read_bias (V m c main_v14) t k)
    (fun k => read_w2 (V m c main_arg4) t k q)

theorem hz : (![0, 0] : Fin 2 → Nat) = fun _ => 0 := funext fun a => by fin_cases a <;> rfl

/-- What point `t` writes back is block `t` of any array-wide function `Gf` whose entries at rows
    `2000·t + p` are the stored block's entries. -/
theorem flushed_of_entries (c : Dev nD) (t : Fin cfg0.N) (Gf : S50000x256.Idx → EReal)
    (h : ∀ (p : Fin 2000) (q : Fin 256),
      k0_pay1 (F := Ideal) (iblk m c 0 t) (iblk m c 1 t) (iblk m c 2 t) (iblk m c 3 t) (iblk m c 4 t) (ix2 p q)
        = Gf (ix2 (row t p) q)) :
    (dats m 0 c).flushed 5 t = ((cfg0.win 5).blk t).view.read (Elt Ideal) Gf := by
  rw [Cert.KernelIdeal.Value.flushed5]
  unfold out0_5
  rw [View.canon_unit_zero hz]
  simp only [View.ld_unit_zero (S := S2000x128) hz, View.ld_unit_zero (S := S128x512) hz,
    View.ld_unit_zero (S := S1x512) hz, View.ld_unit_zero (S := S512x256) hz]
  refine funext fun (j : S2000x256.Idx) => ?_
  obtain ⟨p, q, rfl⟩ : ∃ (p : Fin 2000) (q : Fin 256), j = ix2 p q := ⟨j 0, j 1, eq_ix2 j⟩
  show k0_pay1 (F := Ideal) (iblk m c 0 t) (iblk m c 1 t) (iblk m c 2 t) (iblk m c 3 t) (iblk m c 4 t) (ix2 p q)
    = Gf (((cfg0.win 5).blk t).view.emb (ix2 p q))
  rw [block_out_emb t p q]
  exact h p q

/-- What point `t` writes back is block `t` of the array-wide function. -/
theorem flushed_eq (c : Dev nD) (t : Fin cfg0.N) :
    (dats m 0 c).flushed 5 t = ((cfg0.win 5).blk t).view.read (Elt Ideal) (found m c) :=
  flushed_of_entries m c t (found m c) (stored_entry m c t)

/-- An index of the result array is in point `t`'s block iff each coordinate is in the block's range. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v15).slice (win0_5.rect t)).set ↔ _
  rw [View.set_slice_whole, Rect.mem_set_unit]
  exact Iff.rfl

/-- Every index of the result array is in some point's block: row `r` in block `r / 2000`. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 256 ≤ (i 1).val ∧ (i 1).val < win0_5.index t (1 : Fin 2) * 256 + 256
    rw [e1]; omega

/-- After the run the result array is the array-wide function of the launch memory. -/
theorem final (c : Dev nD) : (dats m 0 c).arrAt 5 cfg0.N = result m c :=
  ((dats m 0 c).arrAt_eq_of_cover 5 (found m c) (fun t _ => flushed_eq m c t) cover).trans (found_eq m c)

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Mlp.Kernel

end
-- ==== Proof.lean ====
/-
  The proof of `Cert.Claim`: a two-layer perceptron on aggregated node features.

  Both programs first form, on the host and by the same operations, the neighbour sums `a`: the feature rows
  gathered at the edges' sources, added from zero into the rows named by the edges' targets. The kernel then
  computes `((a + x) · W1 + b) · W2` for 2000 rows at a time over a grid of 25 points, rounding to bfloat16 on the
  way into each product; the reference computes the same expression for all 50000 rows with two `dot_general`s.
  Over the extended reals a rounding is the identity and a product into a zero accumulator is the plain sum over the
  contracted axis, so entry `(r, q)` is on both sides
  `Σ_k ((Σ_l (a[r, l] + x[r, l]) · W1[l, k]) + b[k]) · W2[k, q]` (Proof/Spec.lean), the sums formed in the same
  grouping: no law of the extended reals is needed, and the precondition is never opened.
  Proof/RefIsSpec.lean reads the reference's last stage as that function; Proof/Payload.lean reads one stored block
  entry by entry; Proof/Blocks.lean says which rows of which arrays a grid point's blocks are; Proof/Result.lean
  puts the 25 written-back blocks together into the result array. The pass that idealizes the kernel rewrote
  nothing, so the kernel's idealization is its own text and `preserves` has nothing to prove.
-/
import proofs.«179304_j4698694222647_1_alg».proof.Defs
import proofs.«179304_j4698694222647_1_alg».proof.Proof.Gen.Kernel
import proofs.«179304_j4698694222647_1_alg».proof.Proof.Gen.Kernel.Skeleton
import proofs.«179304_j4698694222647_1_alg».proof.Proof.Gen.Kernel.Launch
import proofs.«179304_j4698694222647_1_alg».proof.Proof.Gen.Kernel.Points
import proofs.«179304_j4698694222647_1_alg».proof.Proof.Gen.Kernel.Frame
import proofs.«179304_j4698694222647_1_alg».proof.Proof.Gen.KernelIdeal
import proofs.«179304_j4698694222647_1_alg».proof.Proof.Gen.KernelIdeal.Skeleton
import proofs.«179304_j4698694222647_1_alg».proof.Proof.Gen.KernelIdeal.Launch
import proofs.«179304_j4698694222647_1_alg».proof.Proof.Gen.KernelIdeal.Points
import proofs.«179304_j4698694222647_1_alg».proof.Proof.Gen.KernelIdeal.Frame
import proofs.«179304_j4698694222647_1_alg».proof.Proof.Gen.KernelIdeal.Value
import proofs.«179304_j4698694222647_1_alg».proof.Proof.Gen.ReferenceIdeal
import proofs.«179304_j4698694222647_1_alg».proof.Proof.Gen.ReferenceIdeal.Run
import proofs.«179304_j4698694222647_1_alg».proof.Proof.Gen.ReferenceIdeal.Read
import proofs.«179304_j4698694222647_1_alg».proof.Proof.Gen.Pre_finite_inputs
import proofs.«179304_j4698694222647_1_alg».proof.Proof.Spec
import proofs.«179304_j4698694222647_1_alg».proof.Proof.RefIsSpec
import proofs.«179304_j4698694222647_1_alg».proof.Proof.Result
import Idealize.ShloMosaic.Adequacy
import Idealize.ShloMosaic.Init

noncomputable section

namespace Cert.Proof

open Idealize.ShloMosaic Idealize.ShloMosaic.ValueIdx Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs form the neighbour sums by the same host operations of the features and the edge list. -/
theorem sums_eq (x0 : (⟨Cert.KernelIdeal.S50000x128, .f32⟩ : BufTy).Contents (Elt Ideal))
    (x1 : (⟨Cert.KernelIdeal.S2x800000, .i32⟩ : BufTy).Contents (Elt Ideal)) :
    Cert.Mlp.Kernel.aggregate x0 x1 = Cert.ReferenceIdeal.Read.val_main_v13 (F := Ideal) x0 x1 := rfl

/-- From memories agreeing on the arguments both programs end with the result array at the two-layer formula of
    the neighbour sums, the features, the weights and the bias. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Mlp.Ref.result_eq, (hagree c).1, (hagree c).2.1, (hagree c).2.2.1,
    (hagree c).2.2.2.1, (hagree c).2.2.2.2]
  show _ = Cert.Mlp.Kernel.result m c
  unfold Cert.Mlp.Kernel.result
  rw [sums_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
